-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x8 .f32) (main_arg1 : IVec S2x1600000 32) (main_arg2 : FVec F S8x32 .f32) (main_arg3 : FVec F S32 .f32) (main_arg4 : FVec F S32x16 .f32) (main_arg5 : FVec F S16 .f32) (main_arg6 : FVec F S16x1 .f32) (main_arg7 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x32 .f32 := Host.absf main_arg2
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x8 : Shape := ⟨2, ![10000, 8]⟩
abbrev S10000x32 : Shape := ⟨2, ![10000, 32]⟩
abbrev S1700000x32 : Shape := ⟨2, ![1700000, 32]⟩
abbrev S1x32 : Shape := ⟨2, ![1, 32]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 81
  | .vmem => 26
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x32, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x32, .f32⟩
  | .hbm, ⟨51, _⟩ => ⟨S1700000x1, .f32⟩
  | .hbm, ⟨52, _⟩ => ⟨S1700000x32, .f32⟩
  | .hbm, ⟨53, _⟩ => ⟨S1700000x32, .f32⟩
  | .hbm, ⟨54, _⟩ => ⟨S_, .f32⟩
  | .hbm, ⟨55, _⟩ => ⟨S100000x32, .f32⟩
  | .hbm, ⟨56, _⟩ => ⟨S1700000x1, .i32⟩
  | .hbm, ⟨57, _⟩ => ⟨S100000x32, .f32⟩
  | .hbm, ⟨58, _⟩ => ⟨S1x32, .f32⟩
  | .hbm, ⟨59, _⟩ => ⟨S100000x32, .f32⟩
  | .hbm, ⟨60, _⟩ => ⟨S100000x16, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x16, .f32⟩
  | .hbm, ⟨70, _⟩ => ⟨S1700000x1, .f32⟩
  | .hbm, ⟨71, _⟩ => ⟨S1700000x16, .f32⟩
  | .hbm, ⟨72, _⟩ => ⟨S1700000x16, .f32⟩
  | .hbm, ⟨73, _⟩ => ⟨S_, .f32⟩
  | .hbm, ⟨74, _⟩ => ⟨S100000x16, .f32⟩
  | .hbm, ⟨75, _⟩ => ⟨S1700000x1, .i32⟩
  | .hbm, ⟨76, _⟩ => ⟨S100000x16, .f32⟩
  | .hbm, ⟨77, _⟩ => ⟨S1x16, .f32⟩
  | .hbm, ⟨78, _⟩ => ⟨S100000x16, .f32⟩
  | .hbm, ⟨79, _⟩ => ⟨S1x1, .f32⟩
  | .hbm, ⟨80, _⟩ => ⟨S100000x1, .f32⟩
  | .local _ .vmem, ⟨0, _⟩ => ⟨S10000x8, .f32⟩
  | .local _ .vmem, ⟨1, _⟩ => ⟨S10000x8, .f32⟩
  | .local _ .vmem, ⟨2, _⟩ => ⟨S8x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S16x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x8_S10000x8_0_0 : ∀ a, (![0, 0] : Fin 2 → Nat) a + S10000x8.size a ≤ S10000x8.size a
  h_S10000x8 : 0 < S10000x8.numel
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x8_S8x32_S10000x32_1_0_0_1_n_n_wf : DotDims.WF S10000x8 S8x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x16_S10000x16_1_0_0_1_n_n_wf : DotDims.WF S10000x32 S32x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x1.size a ≤ S16x1.size a
  hwx4_1 : ∀ i : grid4.Coords, EltTy.bits .f32 = 32 ∨ (Rect.block (s := S16x1) S16x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000x32 : Shape := ⟨2, ![100000, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x32, .f32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x32, .f32⟩
  | .hbm, ⟨51, _⟩ => ⟨S1700000x1, .f32⟩
  | .hbm, ⟨52, _⟩ => ⟨S1700000x32, .f32⟩
  | .hbm, ⟨53, _⟩ => ⟨S1700000x32, .f32⟩
  | .hbm, ⟨54, _⟩ => ⟨S_, .f32⟩
  | .hbm, ⟨55, _⟩ => ⟨S100000x32, .f32⟩
  | .hbm, ⟨56, _⟩ => ⟨S1700000x1, .i32⟩
  | .hbm, ⟨57, _⟩ => ⟨S100000x32, .f32⟩
  | .hbm, ⟨58, _⟩ => ⟨S1x32, .f32⟩
  | .hbm, ⟨59, _⟩ => ⟨S100000x32, .f32⟩
  | .hbm, ⟨60, _⟩ => ⟨S100000x32, .f32⟩
  | .hbm, ⟨61, _⟩ => ⟨S_, .f32⟩
  | .hbm, ⟨62, _⟩ => ⟨S100000x32, .f32⟩
  | .hbm, ⟨63, _⟩ => ⟨S100000x32, .f32⟩
  | .hbm, ⟨64, _⟩ => ⟨S100000x16, .f32⟩
  | .hbm, ⟨65, _⟩ => ⟨S100000, .i32⟩
  | .hbm, ⟨66, _⟩ => ⟨S1700000, .i32⟩
  | .hbm, ⟨67, _⟩ => ⟨S1700000, .i32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x16, .f32⟩
  | .hbm, ⟨103, _⟩ => ⟨S1700000x1, .f32⟩
  | .hbm, ⟨104, _⟩ => ⟨S1700000x16, .f32⟩
  | .hbm, ⟨105, _⟩ => ⟨S1700000x16, .f32⟩
  | .hbm, ⟨106, _⟩ => ⟨S_, .f32⟩
  | .hbm, ⟨107, _⟩ => ⟨S100000x16, .f32⟩
  | .hbm, ⟨108, _⟩ => ⟨S1700000x1, .i32⟩
  | .hbm, ⟨109, _⟩ => ⟨S100000x16, .f32⟩
  | .hbm, ⟨110, _⟩ => ⟨S1x16, .f32⟩
  | .hbm, ⟨111, _⟩ => ⟨S100000x16, .f32⟩
  | .hbm, ⟨112, _⟩ => ⟨S100000x16, .f32⟩
  | .hbm, ⟨113, _⟩ => ⟨S_, .f32⟩
  | .hbm, ⟨114, _⟩ => ⟨S100000x16, .f32⟩
  | .hbm, ⟨115, _⟩ => ⟨S100000x16, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S_, .f32⟩
  | .hbm, ⟨126, _⟩ => ⟨S100000x1, .f32⟩
  | .hbm, ⟨127, _⟩ => ⟨S100000x1, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_cst_17 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x8_S8x32_S100000x32_1_0_0_1_n_n_wf : DotDims.WF S100000x8 S8x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x1_S100000x1_1_0_0_1_n_n_wf : DotDims.WF S100000x16 S16x1 S100000x1 [1] [0] [0] [1] [] []

variable [Facts₀]

def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel program, run whole: five tiled dense stages with the graph aggregation between them.

  Every weakly fair execution of the program terminates without a fault, and at the end every buffer that is not
  scoped to a region holds the contents that the program's segments leave there in order: a stretch of host
  operations applied to what was there before it, then a tiled stage's arrays at what its write-backs leave. In
  particular the returned array holds the last stage's array after all of its write-backs, and each argument array
  is as launched. The later modules read that last array back, stage by stage, as a function of the arguments.
-/
import proofs.«106234_j85143431676315_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to the end, and every unscoped buffer of every core then holds the last boundary's contents:
    the launch memory carried through the four stretches of host operations and the five tiled stages in order. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run, with the returned array and the eight argument arrays read off the final buffers. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v60 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩)
    (run_buffers m ρ)

end Cert.KernelIdeal.Whole

end
-- ==== Proof.Graph.lean ====
/-
  The graph side of the network: the edge list with self-loops, the symmetric normalisation, and the aggregation of
  node features along the edges. Everything here is stated for any float instance and never opened afterwards: both
  programs apply these same operations to equal inputs.

  The edge array has a row of sources and a row of targets, E = 1600000 entries each; a self-loop is appended for
  every one of the N = 100000 nodes, giving E + N = 1700000 edges. A node's degree is the number of edges that
  point at it. An edge's weight is rsqrt(degree of its source) · rsqrt(degree of its target); a negative index
  counts from the end (N is added to it) before a row is looked up. The aggregation of an N × C array y gathers
  the source's row of y for every edge, scales it by the edge's weight, and sums the scaled rows into the
  target's row of a zero array.
-/
import proofs.«106234_j85143431676315_1_alg».proof.KernelIdeal

noncomputable section

namespace Cert.KernelIdeal.Graph

open Cert.KernelIdeal Cert.KernelIdeal.Facts₀ Cert.KernelIdeal.Facts Idealize.ShloMosaic

variable [Cert.KernelIdeal.Facts] {F : FTy → Type} [FloatOps F]

/-- The source row of the edge array, as a vector. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The target row of the edge array, as a vector. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A row of edge ends followed by the node numbers 0 … N−1: the self-loops. -/
def withLoops (v : (⟨S1600000, .i32⟩ : BufTy).Contents (Elt F)) : (⟨S1700000, .i32⟩ : BufTy).Contents (Elt F) :=
  concatenate S1700000 0 [⟨S1600000, v⟩, ⟨S100000, iotaInDim S100000 32 0⟩] concatenates_S1600000_S100000_S1700000_d0

/-- The sources of all E + N edges. -/
def srcIdx (e : (⟨S2x1600000, .i32⟩ : BufTy).Contents (Elt F)) : (⟨S1700000, .i32⟩ : BufTy).Contents (Elt F) := withLoops (F := F) (srcRow (F := F) e)

/-- The targets of all E + N edges. -/
def dstIdx (e : (⟨S2x1600000, .i32⟩ : BufTy).Contents (Elt F)) : (⟨S1700000, .i32⟩ : BufTy).Contents (Elt F) := withLoops (F := F) (dstRow (F := F) e)

/-- The integer k on every edge. -/
def splatI (k : BitVec 32) : (⟨S1700000, .i32⟩ : BufTy).Contents (Elt F) := broadcastInDim S1700000 ![] bcast_S_S1700000 (constantI S_ 32 k)

/-- A negative index counts from the end: N is added to it. -/
def wrap (v : (⟨S1700000, .i32⟩ : BufTy).Contents (Elt F)) : (⟨S1700000, .i32⟩ : BufTy).Contents (Elt F) :=
  select (cmpi .slt v (splatI (F := F) 0#32)) (addi v (splatI (F := F) 100000#32)) v

/-- A vector of edge indices as a one-column array. -/
def colI (v : (⟨S1700000, .i32⟩ : BufTy).Contents (Elt F)) : (⟨S1700000x1, .i32⟩ : BufTy).Contents (Elt F) := broadcastInDim S1700000x1 ![0] bcast_S1700000_S1700000x1_0 v

/-- A vector of edge weights as a one-column array. -/
def colF (v : (⟨S1700000, .f32⟩ : BufTy).Contents (Elt F)) : (⟨S1700000x1, .f32⟩ : BufTy).Contents (Elt F) := broadcastInDim S1700000x1 ![0] bcast_S1700000_S1700000x1_0 v

/-- The number of edges pointing at each node: ones summed into the targets' entries of a zero vector. -/
def degree (di : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (colI (F := F) di)
    (broadcastInDim S1700000 ![] bcast_S_S1700000 (constant S_ .f32 0x3F800000#32))

/-- rsqrt of the degrees. -/
def dinv (di : (⟨S1700000, .i32⟩ : BufTy).Contents (Elt F)) : (⟨S100000, .f32⟩ : BufTy).Contents (Elt F) := Host.rsqrt (degree (F := F) di)

/-- rsqrt of the degree at the node an index vector names, edge by edge. -/
def dinvAt (di v : (⟨S1700000, .i32⟩ : BufTy).Contents (Elt F)) : (⟨S1700000, .f32⟩ : BufTy).Contents (Elt F) :=
  Host.gather gather_S100000_S1700000x1_S1700000_n_0_n_n_0_1_1 (dinv (F := F) di) (colI (F := F) (wrap (F := F) v))

/-- The weight of every edge: rsqrt(degree of its source) · rsqrt(degree of its target). -/
def edgeNorm (si di : (⟨S1700000, .i32⟩ : BufTy).Contents (Elt F)) : (⟨S1700000, .f32⟩ : BufTy).Contents (Elt F) :=
  mulf (dinvAt (F := F) di si) (dinvAt (F := F) di di)

/-- The aggregation of an N × 32 array along the edges. -/
def aggregate32 (si di : (⟨S1700000, .i32⟩ : BufTy).Contents (Elt F)) (nrm : (⟨S1700000, .f32⟩ : BufTy).Contents (Elt F)) (y : (⟨S100000x32, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32)) (colI (F := F) di)
    (mulf (Host.gather gather_S100000x32_S1700000x1_S1700000x32_1_0_n_n_0_1_132 y (colI (F := F) (wrap (F := F) si)))
      (broadcastInDim S1700000x32 ![0, 1] bcast_S1700000x1_S1700000x32_0_1 (colF (F := F) nrm)))

/-- The aggregation of an N × 16 array along the edges. -/
def aggregate16 (si di : (⟨S1700000, .i32⟩ : BufTy).Contents (Elt F)) (nrm : (⟨S1700000, .f32⟩ : BufTy).Contents (Elt F)) (y : (⟨S100000x16, .f32⟩ : BufTy).Contents (Elt F)) : (⟨S100000x16, .f32⟩ : BufTy).Contents (Elt F) :=
  Host.scatterAdd scatter_S100000x16_S1700000x1_S1700000x16_1_0_0_1
    (broadcastInDim S100000x16 ![] bcast_S_S100000x16 (constant S_ .f32 0x00000000#32)) (colI (F := F) di)
    (mulf (Host.gather gather_S100000x16_S1700000x1_S1700000x16_1_0_n_n_0_1_116 y (colI (F := F) (wrap (F := F) si)))
      (broadcastInDim S1700000x16 ![0, 1] bcast_S1700000x1_S1700000x16_0_1 (colF (F := F) nrm)))

end Cert.KernelIdeal.Graph

end
-- ==== Proof.HostChain.lean ====
/-
  The four stretches of host operations between the tiled stages, read as values.

  For any contents W of the buffers before a stretch: the first stretch leaves the edge sources, the edge targets and
  the edge weights (functions of the edge array alone); the second and third leave the aggregation of the array the
  preceding linear stage wrote, and the bias vector laid out as a row; the last lays the one-entry bias out as a
  1 × 1 array. Every buffer a stretch does not write keeps its contents.
-/
import proofs.«106234_j85143431676315_1_alg».proof.Proof.Gen.KernelIdeal.Launch
import proofs.«106234_j85143431676315_1_alg».proof.Proof.Graph
import Idealize.ShloMosaic.Lib.StableHlo.Run

set_option maxRecDepth 16384

noncomputable section

namespace Cert.KernelIdeal.HostChain

open Cert.KernelIdeal Cert.KernelIdeal.Gen Cert.KernelIdeal.Graph
open Idealize.ShloMosaic Idealize.ShloMosaic.TcCoe Idealize.SL.Sem Idealize.ShloMosaic.StableHlo

variable {F : FTy → Type} [FloatOps F]

/-! ## Before the first stage: the edge list with self-loops and the edge weights -/

theorem host0_main_v5 (W : Valuation τ sig (Elt F)) :
    StableHlo.after hostOps0 W (Proc.devRef .tc main_v5) = srcIdx (F := F) (W (Proc.devRef .tc main_arg1)) := by
  after_results_simp <;> rfl

theorem host0_main_v6 (W : Valuation τ sig (Elt F)) :
    StableHlo.after hostOps0 W (Proc.devRef .tc main_v6) = dstIdx (F := F) (W (Proc.devRef .tc main_arg1)) := by
  after_results_simp <;> rfl

set_option maxHeartbeats 2000000 in
theorem host0_main_v26 (W : Valuation τ sig (Elt F)) :
    StableHlo.after hostOps0 W (Proc.devRef .tc main_v26)
      = edgeNorm (F := F) (srcIdx (F := F) (W (Proc.devRef .tc main_arg1))) (dstIdx (F := F) (W (Proc.devRef .tc main_arg1))) := by
  after_results_simp <;> rfl

theorem host0_main_arg0 (W : Valuation τ sig (Elt F)) :
    StableHlo.after hostOps0 W (Proc.devRef .tc main_arg0) = W (Proc.devRef .tc main_arg0) := by
  after_results_simp <;> rfl

theorem host0_main_arg2 (W : Valuation τ sig (Elt F)) :
    StableHlo.after hostOps0 W (Proc.devRef .tc main_arg2) = W (Proc.devRef .tc main_arg2) := by
  after_results_simp <;> rfl

theorem host0_main_arg3 (W : Valuation τ sig (Elt F)) :
    StableHlo.after hostOps0 W (Proc.devRef .tc main_arg3) = W (Proc.devRef .tc main_arg3) := by
  after_results_simp <;> rfl

theorem host0_main_arg4 (W : Valuation τ sig (Elt F)) :
    StableHlo.after hostOps0 W (Proc.devRef .tc main_arg4) = W (Proc.devRef .tc main_arg4) := by
  after_results_simp <;> rfl

theorem host0_main_arg5 (W : Valuation τ sig (Elt F)) :
    StableHlo.after hostOps0 W (Proc.devRef .tc main_arg5) = W (Proc.devRef .tc main_arg5) := by
  after_results_simp <;> rfl

theorem host0_main_arg6 (W : Valuation τ sig (Elt F)) :
    StableHlo.after hostOps0 W (Proc.devRef .tc main_arg6) = W (Proc.devRef .tc main_arg6) := by
  after_results_simp <;> rfl

theorem host0_main_arg7 (W : Valuation τ sig (Elt F)) :
    StableHlo.after hostOps0 W (Proc.devRef .tc main_arg7) = W (Proc.devRef .tc main_arg7) := by
  after_results_simp <;> rfl

/-! ## Between the first and the second tiled stage: the first aggregation, the first bias as a row -/

theorem host1_main_v40 (W : Valuation τ sig (Elt F)) :
    StableHlo.after hostOps1 W (Proc.devRef .tc main_v40)
      = aggregate32 (F := F) (W (Proc.devRef .tc main_v5)) (W (Proc.devRef .tc main_v6)) (W (Proc.devRef .tc main_v26)) (W (Proc.devRef .tc main_v27)) := by
  after_results_simp <;> rfl

theorem host1_main_v41 (W : Valuation τ sig (Elt F)) :
    StableHlo.after hostOps1 W (Proc.devRef .tc main_v41) = shapeCast S1x32 (W (Proc.devRef .tc main_arg3)) shapeCasts_S32_S1x32 := by
  after_results_simp <;> rfl

theorem host1_main_v5 (W : Valuation τ sig (Elt F)) :
    StableHlo.after hostOps1 W (Proc.devRef .tc main_v5) = W (Proc.devRef .tc main_v5) := by
  after_results_simp <;> rfl

theorem host1_main_v6 (W : Valuation τ sig (Elt F)) :
    StableHlo.after hostOps1 W (Proc.devRef .tc main_v6) = W (Proc.devRef .tc main_v6) := by
  after_results_simp <;> rfl

theorem host1_main_v26 (W : Valuation τ sig (Elt F)) :
    StableHlo.after hostOps1 W (Proc.devRef .tc main_v26) = W (Proc.devRef .tc main_v26) := by
  after_results_simp <;> rfl

theorem host1_main_arg4 (W : Valuation τ sig (Elt F)) :
    StableHlo.after hostOps1 W (Proc.devRef .tc main_arg4) = W (Proc.devRef .tc main_arg4) := by
  after_results_simp <;> rfl

theorem host1_main_arg5 (W : Valuation τ sig (Elt F)) :
    StableHlo.after hostOps1 W (Proc.devRef .tc main_arg5) = W (Proc.devRef .tc main_arg5) := by
  after_results_simp <;> rfl

theorem host1_main_arg6 (W : Valuation τ sig (Elt F)) :
    StableHlo.after hostOps1 W (Proc.devRef .tc main_arg6) = W (Proc.devRef .tc main_arg6) := by
  after_results_simp <;> rfl

theorem host1_main_arg7 (W : Valuation τ sig (Elt F)) :
    StableHlo.after hostOps1 W (Proc.devRef .tc main_arg7) = W (Proc.devRef .tc main_arg7) := by
  after_results_simp <;> rfl

/-! ## Between the third and the fourth tiled stage: the second aggregation, the second bias as a row -/

theorem host3_main_v56 (W : Valuation τ sig (Elt F)) :
    StableHlo.after hostOps3 W (Proc.devRef .tc main_v56)
      = aggregate16 (F := F) (W (Proc.devRef .tc main_v5)) (W (Proc.devRef .tc main_v6)) (W (Proc.devRef .tc main_v26)) (W (Proc.devRef .tc main_v43)) := by
  after_results_simp <;> rfl

theorem host3_main_v57 (W : Valuation τ sig (Elt F)) :
    StableHlo.after hostOps3 W (Proc.devRef .tc main_v57) = shapeCast S1x16 (W (Proc.devRef .tc main_arg5)) shapeCasts_S16_S1x16 := by
  after_results_simp <;> rfl

theorem host3_main_arg6 (W : Valuation τ sig (Elt F)) :
    StableHlo.after hostOps3 W (Proc.devRef .tc main_arg6) = W (Proc.devRef .tc main_arg6) := by
  after_results_simp <;> rfl

theorem host3_main_arg7 (W : Valuation τ sig (Elt F)) :
    StableHlo.after hostOps3 W (Proc.devRef .tc main_arg7) = W (Proc.devRef .tc main_arg7) := by
  after_results_simp <;> rfl

/-! ## Before the last stage: the one-entry bias as a 1 × 1 array -/

theorem host4_main_v59 (W : Valuation τ sig (Elt F)) :
    StableHlo.after hostOps4 W (Proc.devRef .tc main_v59) = shapeCast S1x1 (W (Proc.devRef .tc main_arg7)) shapeCasts_S1_S1x1 := by
  after_results_simp <;> rfl

theorem host4_main_v58 (W : Valuation τ sig (Elt F)) :
    StableHlo.after hostOps4 W (Proc.devRef .tc main_v58) = W (Proc.devRef .tc main_v58) := by
  after_results_simp <;> rfl

theorem host4_main_arg6 (W : Valuation τ sig (Elt F)) :
    StableHlo.after hostOps4 W (Proc.devRef .tc main_arg6) = W (Proc.devRef .tc main_arg6) := by
  after_results_simp <;> rfl

end Cert.KernelIdeal.HostChain

end
-- ==== Proof.Spec.lean ====
/-
  The three dense stages of the network, as functions of whole arrays on the extended reals.

  A linear stage multiplies an n × k array by a k × c array: entry (p, q) is the sum over l of X (p, l) · W (l, q).
  A bias stage adds to every row the bias vector and takes the maximum with zero. The last stage multiplies by an
  n × k by k × 1 array, adds the one bias entry and applies the logistic function 1 / (1 + e^(-x)). The bias is met
  in two layouts, a vector of length c and the same entries as a 1 × c row; both give one function.
-/
import Idealize.ShloMosaic.PureOps.Ideal
import Idealize.ShloMosaic.Lib.ValueIdx
import Idealize.ShloMosaic.Lib.ValueLayout

noncomputable section

namespace Cert.Dense

open Idealize.ShloMosaic Idealize.ShloMosaic.ValueIdx

/-- The product of an n × k array with a k × c array: entry (p, q) is the sum over l of X (p, l) · W (l, q). -/
def mm (n k c : Nat) (X : (⟨2, ![n, k]⟩ : Shape).Idx → EReal) (W : (⟨2, ![k, c]⟩ : Shape).Idx → EReal) :
    (⟨2, ![n, c]⟩ : Shape).Idx → EReal :=
  fun i => ∑ l : Fin k, X (ix2 (i 0) l) * W (ix2 l (i 1))

/-- Every row of X plus the bias vector b, then the maximum with zero (zero kept as its binary word). -/
def biasRelu (n c : Nat) (X : (⟨2, ![n, c]⟩ : Shape).Idx → EReal) (b : (⟨1, ![c]⟩ : Shape).Idx → EReal) :
    (⟨2, ![n, c]⟩ : Shape).Idx → EReal :=
  fun i => max (X i + b (ix1 (i 1))) (Ideal.ofBits .f32 0x00000000#32)

/-- The same with the bias held as a 1 × c row. -/
def biasReluRow (n c : Nat) (X : (⟨2, ![n, c]⟩ : Shape).Idx → EReal) (B : (⟨2, ![1, c]⟩ : Shape).Idx → EReal) :
    (⟨2, ![n, c]⟩ : Shape).Idx → EReal :=
  fun i => max (X i + B (ix2 (0 : Fin 1) (i 1))) (Ideal.ofBits .f32 0x00000000#32)

/-- A bias vector laid out as a row gives the same stage. -/
theorem biasReluRow_cast (n c : Nat) (X : (⟨2, ![n, c]⟩ : Shape).Idx → EReal) (b : (⟨1, ![c]⟩ : Shape).Idx → EReal)
    (h : (⟨1, ![c]⟩ : Shape).ShapeCasts ⟨2, ![1, c]⟩) :
    biasReluRow n c X (shapeCast ⟨2, ![1, c]⟩ b h) = biasRelu n c X b :=
  funext fun i => by
    unfold biasReluRow biasRelu
    rw [shapeCast_a_1a_apply b h (0 : Fin 1) (i 1)]

/-- The last stage: the product with a k × 1 array, plus the bias entry, through the logistic function. -/
def head (n k : Nat) (X : (⟨2, ![n, k]⟩ : Shape).Idx → EReal) (W : (⟨2, ![k, 1]⟩ : Shape).Idx → EReal)
    (b : (⟨1, ![1]⟩ : Shape).Idx → EReal) : (⟨2, ![n, 1]⟩ : Shape).Idx → EReal :=
  fun i => Ideal.logistic (mm n k 1 X W i + b (ix1 (i 1)))

/-- The same with the bias held as a 1 × 1 array. -/
def headRow (n k : Nat) (X : (⟨2, ![n, k]⟩ : Shape).Idx → EReal) (W : (⟨2, ![k, 1]⟩ : Shape).Idx → EReal)
    (B : (⟨2, ![1, 1]⟩ : Shape).Idx → EReal) : (⟨2, ![n, 1]⟩ : Shape).Idx → EReal :=
  fun i => Ideal.logistic (mm n k 1 X W i + B (ix2 (0 : Fin 1) (i 1)))

/-- A one-entry bias vector laid out as a 1 × 1 array gives the same stage. -/
theorem headRow_cast (n k : Nat) (X : (⟨2, ![n, k]⟩ : Shape).Idx → EReal) (W : (⟨2, ![k, 1]⟩ : Shape).Idx → EReal)
    (b : (⟨1, ![1]⟩ : Shape).Idx → EReal) (h : (⟨1, ![1]⟩ : Shape).ShapeCasts ⟨2, ![1, 1]⟩) :
    headRow n k X W (shapeCast ⟨2, ![1, 1]⟩ b h) = head n k X W b :=
  funext fun i => by
    unfold headRow head
    rw [shapeCast_a_1a_apply b h (0 : Fin 1) (i 1)]

/-- The offsets of a whole-block access are all zero. -/
theorem zero_off2 : (![0, 0] : Fin 2 → Nat) = fun _ => 0 := funext fun a => by fin_cases a <;> rfl

end Cert.Dense

end
-- ==== Proof.Model.lean ====
/-
  The whole network as one function of its eight argument arrays, on the extended reals:

    out = logistic ( relu( A · (relu( A · (x W1) + b1 ) W2) + b2 ) Wfc + bfc )

  where A · y is the normalised aggregation of y along the edges with self-loops (Graph), the products are the
  linear stages and relu(· + b) the bias stages (Spec). Both programs are shown to compute this function.
-/
import proofs.«106234_j85143431676315_1_alg».proof.Proof.Graph
import proofs.«106234_j85143431676315_1_alg».proof.Proof.Spec

noncomputable section

namespace Cert.KernelIdeal.Model

open Cert.KernelIdeal Cert.KernelIdeal.Graph Cert.Dense Idealize.ShloMosaic

variable [Cert.KernelIdeal.Facts]

/-- The first hidden layer. -/
def hidden1 (x0 : (⟨S100000x8, .f32⟩ : BufTy).Contents (Elt Ideal)) (x1 : (⟨S2x1600000, .i32⟩ : BufTy).Contents (Elt Ideal)) (x2 : (⟨S8x32, .f32⟩ : BufTy).Contents (Elt Ideal)) (x3 : (⟨S32, .f32⟩ : BufTy).Contents (Elt Ideal)) : (⟨S100000x32, .f32⟩ : BufTy).Contents (Elt Ideal) :=
  biasRelu 100000 32
    (aggregate32 (F := Ideal) (srcIdx (F := Ideal) x1) (dstIdx (F := Ideal) x1)
      (edgeNorm (F := Ideal) (srcIdx (F := Ideal) x1) (dstIdx (F := Ideal) x1)) (mm 100000 8 32 x0 x2)) x3

/-- The second hidden layer, from the first. -/
def hidden2 (h1 : (⟨S100000x32, .f32⟩ : BufTy).Contents (Elt Ideal)) (x1 : (⟨S2x1600000, .i32⟩ : BufTy).Contents (Elt Ideal)) (x4 : (⟨S32x16, .f32⟩ : BufTy).Contents (Elt Ideal)) (x5 : (⟨S16, .f32⟩ : BufTy).Contents (Elt Ideal)) : (⟨S100000x16, .f32⟩ : BufTy).Contents (Elt Ideal) :=
  biasRelu 100000 16
    (aggregate16 (F := Ideal) (srcIdx (F := Ideal) x1) (dstIdx (F := Ideal) x1)
      (edgeNorm (F := Ideal) (srcIdx (F := Ideal) x1) (dstIdx (F := Ideal) x1)) (mm 100000 32 16 h1 x4)) x5

/-- The network's output. -/
def model (x0 : (⟨S100000x8, .f32⟩ : BufTy).Contents (Elt Ideal)) (x1 : (⟨S2x1600000, .i32⟩ : BufTy).Contents (Elt Ideal)) (x2 : (⟨S8x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (x6 : (⟨S16x1, .f32⟩ : BufTy).Contents (Elt Ideal)) (x7 : (⟨S1, .f32⟩ : BufTy).Contents (Elt Ideal)) : (⟨S100000x1, .f32⟩ : BufTy).Contents (Elt Ideal) :=
  head 100000 16 (hidden2 (hidden1 x0 x1 x2 x3) x1 x4 x5) x6 x7

end Cert.KernelIdeal.Model

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«106234_j85143431676315_1_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.Stage0.lean ====
/-
  The first linear stage: a 100000 × 8 array times a 8 × 32 array, computed in ten row blocks of 10000.

  Each grid point multiplies its 10000 × 8 block of rows by the whole 8 × 32 array into a zero accumulator and writes
  the 10000 × 32 result back as the matching row block. Row p of block t is row 10000·t + p of the whole product, the ten
  blocks tile the rows, so after all write-backs the output array is the whole product, whatever the contents
  the stage found in its two input arrays.
-/
import proofs.«106234_j85143431676315_1_alg».proof.Proof.Gen.KernelIdeal.Frame
import proofs.«106234_j85143431676315_1_alg».proof.Proof.LibPlainMatmul
import proofs.«106234_j85143431676315_1_alg».proof.Proof.Spec
import Idealize.ShloMosaic.Lib.Pipeline.Value
import Idealize.ShloMosaic.Lib.ValueIdx

noncomputable section

namespace Cert.KernelIdeal.Stage0

open Cert.KernelIdeal Cert.KernelIdeal.Gen Cert.Dense
open Idealize.ShloMosaic Idealize.ShloMosaic.TcCoe Idealize.ShloMosaic.ValueIdx Idealize.SL.Sem
open Idealize.ShloMosaic.Pipeline (Dat)

/-- The block product's dimension numbers are the plain ones: contract the left operand's columns with the right
    operand's rows, no batch axes. -/
theorem dims_plain : dot_S10000x8_S8x32_S10000x32_1_0_0_1_n_n = DotDims.plain 10000 8 32 := rfl

/-- The body's stored value at (p, q): the sum over l of the row block's (p, l) times the weight's (l, q). -/
theorem pay_apply (x0 : Vec Ideal S10000x8 .f32) (x1 : Vec Ideal S8x32 .f32) (p : Fin 10000) (q : Fin 32) :
    k0_pay1 x0 x1 (ix2 p q) = ∑ l : Fin 8, x0 (ix2 p l) * x1 (ix2 l q) := by
  unfold k0_pay1
  rw [dims_plain]
  exact PlainMatmul.plain_matmul_zero_apply 10000 8 32 none _ _ p q

theorem pay_at (x0 : Vec Ideal S10000x8 .f32) (x1 : Vec Ideal S8x32 .f32) (j : S10000x32.Idx) :
    k0_pay1 x0 x1 j = ∑ l : Fin 8, x0 (ix2 (j 0) l) * x1 (ix2 l (j 1)) :=
  (congrArg (k0_pay1 x0 x1) (eq_ix2 j)).trans (pay_apply x0 x1 (j 0) (j 1))

/-- The index maps over the ten grid points: the row block of the input moves with the output's, the weight
    array and every column block stay at 0. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the ten row blocks is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What grid point t writes back is block t of the whole product of the two input arrays as the stage finds them. -/
theorem flushed_eq (c : Dev nD) (t : Fin cfg0.N) :
    (dat0 V c).flushed 2 t
      = ((cfg0.win 2).blk t).view.read (Elt Ideal) (mm 100000 8 32 (V c main_arg0) (V c main_arg2)) := by
  show (cfg0.win 2).cut (grid0.coords t) ((dat0 V c).after 2 t) = _
  rw [after0_2]
  unfold out0_2
  rw [View.canon_unit_zero zero_off2]
  simp only [View.ld_unit_zero (S := S10000x8) zero_off2, View.ld_unit_zero (S := S8x32) zero_off2]
  obtain ⟨e0, e1, e2, e3, e4⟩ := idx_facts t
  funext j
  show k0_pay1 (iblk0 V c 0 t) (iblk0 V c 1 t) j
    = mm 100000 8 32 (V c main_arg0) (V c main_arg2) (((cfg0.win 2).blk t).view.emb j)
  unfold mm
  refine (pay_at (iblk0 V c 0 t) (iblk0 V c 1 t) j).trans ?_
  refine Finset.sum_congr rfl fun l _ => ?_
  have h0 : (iblk0 V c 0 t (ix2 (j 0) l) : EReal)
      = (V c main_arg0 : S100000x8.Idx → EReal) (ix2 ((((cfg0.win 2).blk t).view.emb j) 0) l) := by
    show (V c main_arg0 : S100000x8.Idx → EReal) (((cfg0.win 0).blk t).view.emb (ix2 (j 0) l)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 8 + 1 * l.val = l.val; omega
  have h1 : (iblk0 V c 1 t (ix2 l (j 1)) : EReal)
      = (V c main_arg2 : S8x32.Idx → EReal) (ix2 l ((((cfg0.win 2).blk t).view.emb j) 1)) := by
    show (V c main_arg2 : S8x32.Idx → EReal) (((cfg0.win 1).blk t).view.emb (ix2 l (j 1))) = _
    refine congrArg _ (funext fun a => Fin.ext ?_)
    match a with
    | ⟨0, _⟩ => show win0_1.index t (0 : Fin 2) * 8 + 1 * l.val = l.val; omega
    | ⟨1, _⟩ => show win0_1.index t (1 : Fin 2) * 32 + 1 * (j 1).val = win0_2.index t (1 : Fin 2) * 32 + 1 * (j 1).val; omega
  exact congrArg₂ (· * ·) h0 h1

/-- An index of the output array is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v27).slice (win0_2.rect t)).set ↔ _
  rw [View.set_slice_whole, Rect.mem_set_unit]
  exact Iff.rfl

/-- The ten row blocks cover the output array: row r lies in the block of point r / 10000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- After all write-backs the output array is the whole product of the two input arrays as the stage found them. -/
theorem final (c : Dev nD) : (dat0 V c).arrAt 2 cfg0.N = mm 100000 8 32 (V c main_arg0) (V c main_arg2) :=
  (dat0 V c).arrAt_eq_of_cover 2 _ (fun t _ => flushed_eq V c t) cover

end Cert.KernelIdeal.Stage0

end
-- ==== Proof.Stage1.lean ====
/-
  The first bias stage: every row of a 100000 × 32 array plus a 1 × 32 bias row, then the maximum with zero,
  computed in ten row blocks of 10000.

  Each grid point adds the bias row to every row of its 10000 × 32 block, takes the maximum with zero entry by entry
  and writes the block back in place of the matching rows of the output. Entry (p, q) of block t is entry
  (10000·t + p, q) of the whole array, the ten blocks tile the rows, so after all write-backs the output array is the
  whole-array function, whatever contents the stage found in its two input arrays.
-/
import proofs.«106234_j85143431676315_1_alg».proof.Proof.Gen.KernelIdeal.Frame
import proofs.«106234_j85143431676315_1_alg».proof.Proof.Spec
import Idealize.ShloMosaic.Lib.Pipeline.Value
import Idealize.ShloMosaic.Lib.ValueIdx
import Idealize.ShloMosaic.Lib.ValueLayout

noncomputable section

namespace Cert.KernelIdeal.Stage1

open Cert.KernelIdeal Cert.KernelIdeal.Gen Cert.Dense
open Idealize.ShloMosaic Idealize.ShloMosaic.TcCoe Idealize.ShloMosaic.ValueIdx Idealize.SL.Sem
open Idealize.ShloMosaic.Pipeline (Dat)

/-- The bias row broadcast over the block's rows reads, at (p, q), the row's entry q. -/
theorem bias_at (x1 : Vec Ideal S1x32 .f32) (j : S10000x32.Idx) :
    broadcastTo S10000x32 x1 broadcasts_S1x32_S10000x32 j = x1 (ix2 (0 : Fin 1) (j 1)) :=
  (congrArg (broadcastTo S10000x32 x1 broadcasts_S1x32_S10000x32) (eq_ix2 j)).trans
    (broadcastTo_1b_ab_apply x1 broadcasts_S1x32_S10000x32 (j 0) (j 1))

/-- The body's stored value at an entry: the block's entry plus the bias row's entry of that column, then the
    maximum with zero. -/
theorem pay_at (x0 : Vec Ideal S10000x32 .f32) (x1 : Vec Ideal S1x32 .f32) (j : S10000x32.Idx) :
    k1_pay1 x0 x1 j = max (x0 j + x1 (ix2 (0 : Fin 1) (j 1))) (Ideal.ofBits .f32 0x00000000#32) := by
  unfold k1_pay1
  simp only [shapeCast_self]
  exact congrArg₂ max (congrArg₂ (· + ·) rfl (bias_at x1 j)) rfl

/-- The index maps over the ten grid points: the input's row block moves with the output's, the bias row and every
    column block stay at 0. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every one of the ten row blocks is some grid point's. -/
theorem idx_onto : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What grid point t writes back is block t of the whole-array bias stage of the two input arrays as found. -/
theorem flushed_eq (c : Dev nD) (t : Fin cfg1.N) :
    (dat1 V c).flushed 2 t
      = ((cfg1.win 2).blk t).view.read (Elt Ideal) (biasReluRow 100000 32 (V c main_v40) (V c main_v41)) := by
  show (cfg1.win 2).cut (grid1.coords t) ((dat1 V c).after 2 t) = _
  rw [after1_2]
  unfold out1_2
  rw [View.canon_unit_zero zero_off2]
  simp only [View.ld_unit_zero (S := S10000x32) zero_off2, View.ld_unit_zero (S := S1x32) zero_off2]
  obtain ⟨e0, e1, e2, e3, e4⟩ := idx_facts t
  funext j
  show k1_pay1 (iblk1 V c 0 t) (iblk1 V c 1 t) j
    = biasReluRow 100000 32 (V c main_v40) (V c main_v41) (((cfg1.win 2).blk t).view.emb j)
  unfold biasReluRow
  refine (pay_at (iblk1 V c 0 t) (iblk1 V c 1 t) j).trans ?_
  have h0 : (iblk1 V c 0 t j : EReal)
      = (V c main_v40 : S100000x32.Idx → EReal) (((cfg1.win 2).blk t).view.emb j) := by
    show (V c main_v40 : S100000x32.Idx → EReal) (((cfg1.win 0).blk t).view.emb j) = _
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 32 + 1 * (j 1).val = win1_2.index t (1 : Fin 2) * 32 + 1 * (j 1).val; omega
  have h1 : (iblk1 V c 1 t (ix2 (0 : Fin 1) (j 1)) : EReal)
      = (V c main_v41 : S1x32.Idx → EReal) (ix2 (0 : Fin 1) ((((cfg1.win 2).blk t).view.emb j) 1)) := by
    show (V c main_v41 : S1x32.Idx → EReal) (((cfg1.win 1).blk t).view.emb (ix2 (0 : Fin 1) (j 1))) = _
    refine congrArg _ (funext fun a => Fin.ext ?_)
    match a with
    | ⟨0, _⟩ => show win1_1.index t (0 : Fin 2) * 1 + 1 * 0 = 0; omega
    | ⟨1, _⟩ => show win1_1.index t (1 : Fin 2) * 32 + 1 * (j 1).val = win1_2.index t (1 : Fin 2) * 32 + 1 * (j 1).val; omega
  exact congrArg₂ max (congrArg₂ (· + ·) h0 h1) rfl

/-- An index of the output array is in point t's block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v42).slice (win1_2.rect t)).set ↔ _
  rw [View.set_slice_whole, Rect.mem_set_unit]
  exact Iff.rfl

/-- The ten row blocks cover the output array: row r lies in the block of point r / 10000. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- After all write-backs the output array is the whole-array bias stage of the two input arrays as found. -/
theorem final (c : Dev nD) : (dat1 V c).arrAt 2 cfg1.N = biasReluRow 100000 32 (V c main_v40) (V c main_v41) :=
  (dat1 V c).arrAt_eq_of_cover 2 _ (fun t _ => flushed_eq V c t) cover

end Cert.KernelIdeal.Stage1

end
-- ==== Proof.Stage2.lean ====
/-
  The second linear stage: a 100000 × 32 array times a 32 × 16 array, computed in ten row blocks of 10000.

  Each grid point multiplies its 10000 × 32 block of rows by the whole 32 × 16 array into a zero accumulator and writes
  the 10000 × 16 result back as the matching row block. Row p of block t is row 10000·t + p of the whole product, the ten
  blocks tile the rows, so after all write-backs the output array is the whole product, whatever the contents
  the stage found in its two input arrays.
-/
import proofs.«106234_j85143431676315_1_alg».proof.Proof.Gen.KernelIdeal.Frame
import proofs.«106234_j85143431676315_1_alg».proof.Proof.LibPlainMatmul
import proofs.«106234_j85143431676315_1_alg».proof.Proof.Spec
import Idealize.ShloMosaic.Lib.Pipeline.Value
import Idealize.ShloMosaic.Lib.ValueIdx

noncomputable section

namespace Cert.KernelIdeal.Stage2

open Cert.KernelIdeal Cert.KernelIdeal.Gen Cert.Dense
open Idealize.ShloMosaic Idealize.ShloMosaic.TcCoe Idealize.ShloMosaic.ValueIdx Idealize.SL.Sem
open Idealize.ShloMosaic.Pipeline (Dat)

/-- The block product's dimension numbers are the plain ones: contract the left operand's columns with the right
    operand's rows, no batch axes. -/
theorem dims_plain : dot_S10000x32_S32x16_S10000x16_1_0_0_1_n_n = DotDims.plain 10000 32 16 := rfl

/-- The body's stored value at (p, q): the sum over l of the row block's (p, l) times the weight's (l, q). -/
theorem pay_apply (x0 : Vec Ideal S10000x32 .f32) (x1 : Vec Ideal S32x16 .f32) (p : Fin 10000) (q : Fin 16) :
    k2_pay1 x0 x1 (ix2 p q) = ∑ l : Fin 32, x0 (ix2 p l) * x1 (ix2 l q) := by
  unfold k2_pay1
  simp only [shapeCast_self]
  rw [dims_plain]
  exact PlainMatmul.plain_matmul_zero_apply 10000 32 16 none _ _ p q

theorem pay_at (x0 : Vec Ideal S10000x32 .f32) (x1 : Vec Ideal S32x16 .f32) (j : S10000x16.Idx) :
    k2_pay1 x0 x1 j = ∑ l : Fin 32, x0 (ix2 (j 0) l) * x1 (ix2 l (j 1)) :=
  (congrArg (k2_pay1 x0 x1) (eq_ix2 j)).trans (pay_apply x0 x1 (j 0) (j 1))

/-- The index maps over the ten grid points: the row block of the input moves with the output's, the weight
    array and every column block stay at 0. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the ten row blocks is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What grid point t writes back is block t of the whole product of the two input arrays as the stage finds them. -/
theorem flushed_eq (c : Dev nD) (t : Fin cfg2.N) :
    (dat2 V c).flushed 2 t
      = ((cfg2.win 2).blk t).view.read (Elt Ideal) (mm 100000 32 16 (V c main_v42) (V c main_arg4)) := by
  show (cfg2.win 2).cut (grid2.coords t) ((dat2 V c).after 2 t) = _
  rw [after2_2]
  unfold out2_2
  rw [View.canon_unit_zero zero_off2]
  simp only [View.ld_unit_zero (S := S10000x32) zero_off2, View.ld_unit_zero (S := S32x16) zero_off2]
  obtain ⟨e0, e1, e2, e3, e4⟩ := idx_facts t
  funext j
  show k2_pay1 (iblk2 V c 0 t) (iblk2 V c 1 t) j
    = mm 100000 32 16 (V c main_v42) (V c main_arg4) (((cfg2.win 2).blk t).view.emb j)
  unfold mm
  refine (pay_at (iblk2 V c 0 t) (iblk2 V c 1 t) j).trans ?_
  refine Finset.sum_congr rfl fun l _ => ?_
  have h0 : (iblk2 V c 0 t (ix2 (j 0) l) : EReal)
      = (V c main_v42 : S100000x32.Idx → EReal) (ix2 ((((cfg2.win 2).blk t).view.emb j) 0) l) := by
    show (V c main_v42 : S100000x32.Idx → EReal) (((cfg2.win 0).blk t).view.emb (ix2 (j 0) l)) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 32 + 1 * l.val = l.val; omega
  have h1 : (iblk2 V c 1 t (ix2 l (j 1)) : EReal)
      = (V c main_arg4 : S32x16.Idx → EReal) (ix2 l ((((cfg2.win 2).blk t).view.emb j) 1)) := by
    show (V c main_arg4 : S32x16.Idx → EReal) (((cfg2.win 1).blk t).view.emb (ix2 l (j 1))) = _
    refine congrArg _ (funext fun a => Fin.ext ?_)
    match a with
    | ⟨0, _⟩ => show win2_1.index t (0 : Fin 2) * 32 + 1 * l.val = l.val; omega
    | ⟨1, _⟩ => show win2_1.index t (1 : Fin 2) * 16 + 1 * (j 1).val = win2_2.index t (1 : Fin 2) * 16 + 1 * (j 1).val; omega
  exact congrArg₂ (· * ·) h0 h1

/-- An index of the output array is in point t's block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v43).slice (win2_2.rect t)).set ↔ _
  rw [View.set_slice_whole, Rect.mem_set_unit]
  exact Iff.rfl

/-- The ten row blocks cover the output array: row r lies in the block of point r / 10000. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- After all write-backs the output array is the whole product of the two input arrays as the stage found them. -/
theorem final (c : Dev nD) : (dat2 V c).arrAt 2 cfg2.N = mm 100000 32 16 (V c main_v42) (V c main_arg4) :=
  (dat2 V c).arrAt_eq_of_cover 2 _ (fun t _ => flushed_eq V c t) cover

end Cert.KernelIdeal.Stage2

end
-- ==== Proof.Stage3.lean ====
/-
  The second bias stage: every row of a 100000 × 16 array plus a 1 × 16 bias row, then the maximum with zero,
  computed in ten row blocks of 10000.

  Each grid point adds the bias row to every row of its 10000 × 16 block, takes the maximum with zero entry by entry
  and writes the block back in place of the matching rows of the output. Entry (p, q) of block t is entry
  (10000·t + p, q) of the whole array, the ten blocks tile the rows, so after all write-backs the output array is the
  whole-array function, whatever contents the stage found in its two input arrays.
-/
import proofs.«106234_j85143431676315_1_alg».proof.Proof.Gen.KernelIdeal.Frame
import proofs.«106234_j85143431676315_1_alg».proof.Proof.Spec
import Idealize.ShloMosaic.Lib.Pipeline.Value
import Idealize.ShloMosaic.Lib.ValueIdx
import Idealize.ShloMosaic.Lib.ValueLayout

noncomputable section

namespace Cert.KernelIdeal.Stage3

open Cert.KernelIdeal Cert.KernelIdeal.Gen Cert.Dense
open Idealize.ShloMosaic Idealize.ShloMosaic.TcCoe Idealize.ShloMosaic.ValueIdx Idealize.SL.Sem
open Idealize.ShloMosaic.Pipeline (Dat)

/-- The bias row broadcast over the block's rows reads, at (p, q), the row's entry q. -/
theorem bias_at (x1 : Vec Ideal S1x16 .f32) (j : S10000x16.Idx) :
    broadcastTo S10000x16 x1 broadcasts_S1x16_S10000x16 j = x1 (ix2 (0 : Fin 1) (j 1)) :=
  (congrArg (broadcastTo S10000x16 x1 broadcasts_S1x16_S10000x16) (eq_ix2 j)).trans
    (broadcastTo_1b_ab_apply x1 broadcasts_S1x16_S10000x16 (j 0) (j 1))

/-- The body's stored value at an entry: the block's entry plus the bias row's entry of that column, then the
    maximum with zero. -/
theorem pay_at (x0 : Vec Ideal S10000x16 .f32) (x1 : Vec Ideal S1x16 .f32) (j : S10000x16.Idx) :
    k3_pay1 x0 x1 j = max (x0 j + x1 (ix2 (0 : Fin 1) (j 1))) (Ideal.ofBits .f32 0x00000000#32) := by
  unfold k3_pay1
  simp only [shapeCast_self]
  exact congrArg₂ max (congrArg₂ (· + ·) rfl (bias_at x1 j)) rfl

/-- The index maps over the ten grid points: the input's row block moves with the output's, the bias row and every
    column block stay at 0. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 :=
  (by decide +kernel : ∀ t : Fin grid3.N, _)

/-- Every one of the ten row blocks is some grid point's. -/
theorem idx_onto : ∀ q0 : Fin 10, ∃ t : Fin cfg3.N, win3_2.index t = ![q0.val, 0] :=
  (by decide +kernel : ∀ q0 : Fin 10, ∃ t : Fin grid3.N, win3_2.index t = ![q0.val, 0])

variable (V : (c : Dev nD) → (b : Ref sig .tc) → Buf (Elt Ideal) ((c : Thread nD τ).loc b))

/-- What grid point t writes back is block t of the whole-array bias stage of the two input arrays as found. -/
theorem flushed_eq (c : Dev nD) (t : Fin cfg3.N) :
    (dat3 V c).flushed 2 t
      = ((cfg3.win 2).blk t).view.read (Elt Ideal) (biasReluRow 100000 16 (V c main_v56) (V c main_v57)) := by
  show (cfg3.win 2).cut (grid3.coords t) ((dat3 V c).after 2 t) = _
  rw [after3_2]
  unfold out3_2
  rw [View.canon_unit_zero zero_off2]
  simp only [View.ld_unit_zero (S := S10000x16) zero_off2, View.ld_unit_zero (S := S1x16) zero_off2]
  obtain ⟨e0, e1, e2, e3, e4⟩ := idx_facts t
  funext j
  show k3_pay1 (iblk3 V c 0 t) (iblk3 V c 1 t) j
    = biasReluRow 100000 16 (V c main_v56) (V c main_v57) (((cfg3.win 2).blk t).view.emb j)
  unfold biasReluRow
  refine (pay_at (iblk3 V c 0 t) (iblk3 V c 1 t) j).trans ?_
  have h0 : (iblk3 V c 0 t j : EReal)
      = (V c main_v56 : S100000x16.Idx → EReal) (((cfg3.win 2).blk t).view.emb j) := by
    show (V c main_v56 : S100000x16.Idx → EReal) (((cfg3.win 0).blk t).view.emb j) = _
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 16 + 1 * (j 1).val = win3_2.index t (1 : Fin 2) * 16 + 1 * (j 1).val; omega
  have h1 : (iblk3 V c 1 t (ix2 (0 : Fin 1) (j 1)) : EReal)
      = (V c main_v57 : S1x16.Idx → EReal) (ix2 (0 : Fin 1) ((((cfg3.win 2).blk t).view.emb j) 1)) := by
    show (V c main_v57 : S1x16.Idx → EReal) (((cfg3.win 1).blk t).view.emb (ix2 (0 : Fin 1) (j 1))) = _
    refine congrArg _ (funext fun a => Fin.ext ?_)
    match a with
    | ⟨0, _⟩ => show win3_1.index t (0 : Fin 2) * 1 + 1 * 0 = 0; omega
    | ⟨1, _⟩ => show win3_1.index t (1 : Fin 2) * 16 + 1 * (j 1).val = win3_2.index t (1 : Fin 2) * 16 + 1 * (j 1).val; omega
  exact congrArg₂ max (congrArg₂ (· + ·) h0 h1) rfl

/-- An index of the output array is in point t's block iff each coordinate is in the block's range on its axis. -/
theorem mem_blk (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v58).slice (win3_2.rect t)).set ↔ _
  rw [View.set_slice_whole, Rect.mem_set_unit]
  exact Iff.rfl

/-- The ten row blocks cover the output array: row r lies in the block of point r / 10000. -/
theorem cover (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- After all write-backs the output array is the whole-array bias stage of the two input arrays as found. -/
theorem final (c : Dev nD) : (dat3 V c).arrAt 2 cfg3.N = biasReluRow 100000 16 (V c main_v56) (V c main_v57) :=
  (dat3 V c).arrAt_eq_of_cover 2 _ (fun t _ => flushed_eq V c t) cover

end Cert.KernelIdeal.Stage3

end
-- ==== Proof.Stage4.lean ====
/-
  The last stage: a 100000 × 16 array times a 16 × 1 array, plus one bias entry, through the logistic function,
  computed in ten row blocks of 10000.

  Each grid point multiplies its 10000 × 16 block of rows by the whole 16 × 1 array into a zero accumulator, adds the
  1 × 1 bias to every entry, applies the logistic function 1 / (1 + e^(-x)) entry by entry and writes the 10000 × 1
  result back as the matching rows. Row p of block t is row 10000·t + p of the whole array, the ten blocks tile
  the rows, so after all write-backs the output array is the whole-array function of the three input arrays as
  the stage found them.
-/
import proofs.«106234_j85143431676315_1_alg».proof.Proof.Gen.KernelIdeal.Frame
import proofs.«106234_j85143431676315_1_alg».proof.Proof.LibPlainMatmul
import proofs.«106234_j85143431676315_1_alg».proof.Proof.Spec
import Idealize.ShloMosaic.Lib.Pipeline.Value
import Idealize.ShloMosaic.Lib.ValueIdx
import Idealize.ShloMosaic.Lib.ValueLayout

noncomputable section

namespace Cert.KernelIdeal.Stage4

open Cert.KernelIdeal Cert.KernelIdeal.Gen Cert.Dense
open Idealize.ShloMosaic Idealize.ShloMosaic.TcCoe Idealize.ShloMosaic.ValueIdx Idealize.SL.Sem
open Idealize.ShloMosaic.Pipeline (Dat)

/-- The block product's dimension numbers are the plain ones. -/
theorem dims_plain : dot_S10000x16_S16x1_S10000x1_1_0_0_1_n_n = DotDims.plain 10000 16 1 := rfl

/-- The block product at (p, q): the sum over l of the row block's (p, l) times the weight's (l, q). -/
theorem prod_at (x0 : FVec Ideal S10000x16 .bf16) (x1 : FVec Ideal S16x1 .bf16) (j : S10000x1.Idx) :
    matmul (F := Ideal) dot_S10000x16_S16x1_S10000x1_1_0_0_1_n_n none x0 x1 (constant S10000x1 .f32 0x00000000#32) j
      = ∑ l : Fin 16, x0 (ix2 (j 0) l) * x1 (ix2 l (j 1)) := by
  rw [dims_plain]
  exact (congrArg (matmul (F := Ideal) (DotDims.plain 10000 16 1) none x0 x1 (constant S10000x1 .f32 0x00000000#32)) (eq_ix2 j)).trans
    (PlainMatmul.plain_matmul_zero_apply 10000 16 1 none x0 x1 (j 0) (j 1))

/-- The 1 × 1 bias broadcast over the block's rows reads, at (p, q), its one entry. -/
theorem bias_at (x2 : Vec Ideal S1x1 .f32) (j : S10000x1.Idx) :
    broadcastTo S10000x1 x2 broadcasts_S1x1_S10000x1 j = x2 (ix2 (0 : Fin 1) (j 1)) :=
  (congrArg (broadcastTo S10000x1 x2 broadcasts_S1x1_S10000x1) (eq_ix2 j)).trans
    (broadcastTo_1b_ab_apply x2 broadcasts_S1x1_S10000x1 (j 0) (j 1))

/-- The body's stored value at an entry: the logistic function of the product's entry plus the bias. -/
theorem pay_at (x0 : Vec Ideal S10000x16 .f32) (x1 : Vec Ideal S16x1 .f32) (x2 : Vec Ideal S1x1 .f32) (j : S10000x1.Idx) :
    k4_pay1 x0 x1 x2 j
      = Ideal.logistic ((∑ l : Fin 16, x0 (ix2 (j 0) l) * x1 (ix2 l (j 1))) + x2 (ix2 (0 : Fin 1) (j 1))) := by
  unfold k4_pay1
  simp only [shapeCast_self]
  exact congrArg Ideal.logistic (congrArg₂ (· + ·)
    (prod_at (truncf .bf16 x0 bitsLt_bf16_f32) (truncf .bf16 x1 bitsLt_bf16_f32) j) (bias_at x2 j))

/-- The index maps over the ten grid points: the input's row block moves with the output's, the weight, the bias
    and every column block stay at 0. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 :=
  (by decide +kernel : ∀ t : Fin grid4.N, _)

/-- Every one of the ten row blocks is some grid point's. -/
theorem idx_onto : ∀ q0 : Fin 10, ∃ t : Fin cfg4.N, win4_3.index t = ![q0.val, 0] :=
  (by decide +kernel : ∀ q0 : Fin 10, ∃ t : Fin grid4.N, win4_3.index t = ![q0.val, 0])

variable (V : (c : Dev nD) → (b : Ref sig .tc) → Buf (Elt Ideal) ((c : Thread nD τ).loc b))

/-- What grid point t writes back is block t of the whole-array last stage of the three input arrays as found. -/
theorem flushed_eq (c : Dev nD) (t : Fin cfg4.N) :
    (dat4 V c).flushed 3 t
      = ((cfg4.win 3).blk t).view.read (Elt Ideal) (headRow 100000 16 (V c main_v58) (V c main_arg6) (V c main_v59)) := by
  show (cfg4.win 3).cut (grid4.coords t) ((dat4 V c).after 3 t) = _
  rw [after4_3]
  unfold out4_3
  rw [View.canon_unit_zero zero_off2]
  simp only [View.ld_unit_zero (S := S10000x16) zero_off2, View.ld_unit_zero (S := S16x1) zero_off2,
    View.ld_unit_zero (S := S1x1) zero_off2]
  obtain ⟨e0, e1, e2, e3, e4, e5, e6⟩ := idx_facts t
  funext j
  show k4_pay1 (iblk4 V c 0 t) (iblk4 V c 1 t) (iblk4 V c 2 t) j
    = headRow 100000 16 (V c main_v58) (V c main_arg6) (V c main_v59) (((cfg4.win 3).blk t).view.emb j)
  unfold headRow mm
  refine (pay_at (iblk4 V c 0 t) (iblk4 V c 1 t) (iblk4 V c 2 t) j).trans ?_
  refine congrArg Ideal.logistic (congrArg₂ (· + ·) (Finset.sum_congr rfl fun l _ => ?_) ?_)
  · have h0 : (iblk4 V c 0 t (ix2 (j 0) l) : EReal)
        = (V c main_v58 : S100000x16.Idx → EReal) (ix2 ((((cfg4.win 3).blk t).view.emb j) 0) l) := by
      show (V c main_v58 : S100000x16.Idx → EReal) (((cfg4.win 0).blk t).view.emb (ix2 (j 0) l)) = _
      refine congrArg _ (funext fun a => Fin.ext ?_)
      match a with
      | ⟨0, _⟩ => show win4_0.index t (0 : Fin 2) * 10000 + 1 * (j 0).val = win4_3.index t (0 : Fin 2) * 10000 + 1 * (j 0).val; omega
      | ⟨1, _⟩ => show win4_0.index t (1 : Fin 2) * 16 + 1 * l.val = l.val; omega
    have h1 : (iblk4 V c 1 t (ix2 l (j 1)) : EReal)
        = (V c main_arg6 : S16x1.Idx → EReal) (ix2 l ((((cfg4.win 3).blk t).view.emb j) 1)) := by
      show (V c main_arg6 : S16x1.Idx → EReal) (((cfg4.win 1).blk t).view.emb (ix2 l (j 1))) = _
      refine congrArg _ (funext fun a => Fin.ext ?_)
      match a with
      | ⟨0, _⟩ => show win4_1.index t (0 : Fin 2) * 16 + 1 * l.val = l.val; omega
      | ⟨1, _⟩ => show win4_1.index t (1 : Fin 2) * 1 + 1 * (j 1).val = win4_3.index t (1 : Fin 2) * 1 + 1 * (j 1).val; omega
    exact congrArg₂ (· * ·) h0 h1
  · show (V c main_v59 : S1x1.Idx → EReal) (((cfg4.win 2).blk t).view.emb (ix2 (0 : Fin 1) (j 1)))
      = (V c main_v59 : S1x1.Idx → EReal) (ix2 (0 : Fin 1) ((((cfg4.win 3).blk t).view.emb j) 1))
    refine congrArg _ (funext fun a => Fin.ext ?_)
    match a with
    | ⟨0, _⟩ => show win4_2.index t (0 : Fin 2) * 1 + 1 * 0 = 0; omega
    | ⟨1, _⟩ => show win4_2.index t (1 : Fin 2) * 1 + 1 * (j 1).val = win4_3.index t (1 : Fin 2) * 1 + 1 * (j 1).val; omega

/-- An index of the output array is in point t's block iff each coordinate is in the block's range on its axis. -/
theorem mem_blk (t : Fin cfg4.N) (i : S100000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v60).slice (win4_3.rect t)).set ↔ _
  rw [View.set_slice_whole, Rect.mem_set_unit]
  exact Iff.rfl

/-- The ten row blocks cover the output array: row r lies in the block of point r / 10000. -/
theorem cover (i : S100000x1.Idx) : ∃ t : Fin cfg4.N, (cfg4.win 3).flush t = true ∧ i ∈ ((cfg4.win 3).blk t).view.set := by
  have hi0 : (i 0).val < 100000 := (i 0).isLt
  have hi1 : (i 1).val < 1 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 1 ≤ (i 1).val ∧ (i 1).val < win4_3.index t (1 : Fin 2) * 1 + 1; omega

/-- After all write-backs the output array is the whole-array last stage of the three input arrays as found. -/
theorem final (c : Dev nD) :
    (dat4 V c).arrAt 3 cfg4.N = headRow 100000 16 (V c main_v58) (V c main_arg6) (V c main_v59) :=
  (dat4 V c).arrAt_eq_of_cover 3 _ (fun t _ => flushed_eq V c t) cover

end Cert.KernelIdeal.Stage4

end
-- ==== Proof.KernelValue.lean ====
/-
  What the idealized kernel program returns, as a function of its eight argument arrays.

  The buffers are followed from the launch to the return, boundary by boundary. A stretch of host operations
  turns the edge array into the edge sources, targets and weights, or aggregates the array a linear stage wrote,
  or lays a bias vector out as a row; a tiled stage turns its input arrays into the whole-array product, bias
  stage or last stage (the five stage modules); every other live buffer is carried across unchanged. At the return
  the result array holds the network's output of the argument arrays as launched (Model).
-/
import proofs.«106234_j85143431676315_1_alg».proof.Proof.Gen.KernelIdeal.Frame
import proofs.«106234_j85143431676315_1_alg».proof.Proof.HostChain
import proofs.«106234_j85143431676315_1_alg».proof.Proof.Model
import proofs.«106234_j85143431676315_1_alg».proof.Proof.Stage0
import proofs.«106234_j85143431676315_1_alg».proof.Proof.Stage1
import proofs.«106234_j85143431676315_1_alg».proof.Proof.Stage2
import proofs.«106234_j85143431676315_1_alg».proof.Proof.Stage3
import proofs.«106234_j85143431676315_1_alg».proof.Proof.Stage4

set_option maxRecDepth 16384

noncomputable section

namespace Cert.KernelIdeal.KernelValue

open Cert.KernelIdeal Cert.KernelIdeal.Gen Cert.KernelIdeal.Graph Cert.KernelIdeal.Model Cert.KernelIdeal.HostChain Cert.Dense
open Idealize.ShloMosaic Idealize.ShloMosaic.TcCoe Idealize.SL.Sem

/-- A function of three arguments at equal arguments. -/
theorem congr3 {α β γ δ : Sort _} (f : α → β → γ → δ) {a a' : α} {b b' : β} {c c' : γ}
    (ha : a = a') (hb : b = b') (hc : c = c') : f a b c = f a' b' c' := by subst ha hb hc; rfl

/-- A function of four arguments at equal arguments. -/
theorem congr4 {α β γ δ ε : Sort _} (f : α → β → γ → δ → ε) {a a' : α} {b b' : β} {c c' : γ} {d d' : δ}
    (ha : a = a') (hb : b = b') (hc : c = c') (hd : d = d') : f a b c d = f a' b' c' d' := by subst ha hb hc hd; rfl

variable (m : (ℓ : Loc nD τ sig) → Buf (Elt Ideal) ℓ) (ρ : Dev nD → PrngReg) (c : Dev nD)

/-! ## The argument arrays as launched on core c, and the network's intermediate arrays of them -/

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)

/-- Edge sources, targets and weights. -/
abbrev si := srcIdx (F := Ideal) (a1 m c)
abbrev di := dstIdx (F := Ideal) (a1 m c)
abbrev nr := edgeNorm (F := Ideal) (si m c) (di m c)
/-- The first linear stage, its aggregation, the first hidden layer. -/
abbrev y1 := mm 100000 8 32 (a0 m c) (a2 m c)
abbrev g1 := aggregate32 (F := Ideal) (si m c) (di m c) (nr m c) (y1 m c)
abbrev h1 := biasRelu 100000 32 (g1 m c) (a3 m c)
/-- The second linear stage, its aggregation, the second hidden layer. -/
abbrev y2 := mm 100000 32 16 (h1 m c) (a4 m c)
abbrev g2 := aggregate16 (F := Ideal) (si m c) (di m c) (nr m c) (y2 m c)
abbrev h2 := biasRelu 100000 16 (g2 m c) (a5 m c)

/-! ## After the first stretch of host operations -/

theorem w1_main_v5 : W1 m ρ c (Proc.devRef .tc main_v5) = si m c := host0_main_v5 (W0 m ρ c)
theorem w1_main_v6 : W1 m ρ c (Proc.devRef .tc main_v6) = di m c := host0_main_v6 (W0 m ρ c)
theorem w1_main_v26 : W1 m ρ c (Proc.devRef .tc main_v26) = nr m c := host0_main_v26 (W0 m ρ c)
theorem w1_main_arg0 : W1 m ρ c (Proc.devRef .tc main_arg0) = a0 m c := host0_main_arg0 (W0 m ρ c)
theorem w1_main_arg2 : W1 m ρ c (Proc.devRef .tc main_arg2) = a2 m c := host0_main_arg2 (W0 m ρ c)
theorem w1_main_arg3 : W1 m ρ c (Proc.devRef .tc main_arg3) = a3 m c := host0_main_arg3 (W0 m ρ c)
theorem w1_main_arg4 : W1 m ρ c (Proc.devRef .tc main_arg4) = a4 m c := host0_main_arg4 (W0 m ρ c)
theorem w1_main_arg5 : W1 m ρ c (Proc.devRef .tc main_arg5) = a5 m c := host0_main_arg5 (W0 m ρ c)
theorem w1_main_arg6 : W1 m ρ c (Proc.devRef .tc main_arg6) = a6 m c := host0_main_arg6 (W0 m ρ c)
theorem w1_main_arg7 : W1 m ρ c (Proc.devRef .tc main_arg7) = a7 m c := host0_main_arg7 (W0 m ρ c)

/-! ## After the first linear stage -/

theorem w2_main_v27 : W2 m ρ c (Proc.devRef .tc main_v27) = y1 m c :=
  (W2_arr m ρ c 2).trans ((Stage0.final (V1 m ρ) c).trans
    (congrArg₂ (mm 100000 8 32) (w1_main_arg0 m ρ c) (w1_main_arg2 m ρ c)))
theorem w2_main_v5 : W2 m ρ c (Proc.devRef .tc main_v5) = si m c := (W2_of_ne m ρ c main_v5 (by decide)).trans (w1_main_v5 m ρ c)
theorem w2_main_v6 : W2 m ρ c (Proc.devRef .tc main_v6) = di m c := (W2_of_ne m ρ c main_v6 (by decide)).trans (w1_main_v6 m ρ c)
theorem w2_main_v26 : W2 m ρ c (Proc.devRef .tc main_v26) = nr m c := (W2_of_ne m ρ c main_v26 (by decide)).trans (w1_main_v26 m ρ c)
theorem w2_main_arg3 : W2 m ρ c (Proc.devRef .tc main_arg3) = a3 m c := (W2_of_ne m ρ c main_arg3 (by decide)).trans (w1_main_arg3 m ρ c)
theorem w2_main_arg4 : W2 m ρ c (Proc.devRef .tc main_arg4) = a4 m c := (W2_of_ne m ρ c main_arg4 (by decide)).trans (w1_main_arg4 m ρ c)
theorem w2_main_arg5 : W2 m ρ c (Proc.devRef .tc main_arg5) = a5 m c := (W2_of_ne m ρ c main_arg5 (by decide)).trans (w1_main_arg5 m ρ c)
theorem w2_main_arg6 : W2 m ρ c (Proc.devRef .tc main_arg6) = a6 m c := (W2_of_ne m ρ c main_arg6 (by decide)).trans (w1_main_arg6 m ρ c)
theorem w2_main_arg7 : W2 m ρ c (Proc.devRef .tc main_arg7) = a7 m c := (W2_of_ne m ρ c main_arg7 (by decide)).trans (w1_main_arg7 m ρ c)

/-! ## After the second stretch: the first aggregation -/

theorem w3_main_v40 : W3 m ρ c (Proc.devRef .tc main_v40) = g1 m c :=
  (host1_main_v40 (W2 m ρ c)).trans
    (congr4 (aggregate32 (F := Ideal)) (w2_main_v5 m ρ c) (w2_main_v6 m ρ c) (w2_main_v26 m ρ c) (w2_main_v27 m ρ c))
theorem w3_main_v41 : W3 m ρ c (Proc.devRef .tc main_v41) = shapeCast S1x32 (a3 m c) shapeCasts_S32_S1x32 :=
  (host1_main_v41 (W2 m ρ c)).trans (congrArg (fun b => shapeCast S1x32 b shapeCasts_S32_S1x32) (w2_main_arg3 m ρ c))
theorem w3_main_v5 : W3 m ρ c (Proc.devRef .tc main_v5) = si m c := (host1_main_v5 (W2 m ρ c)).trans (w2_main_v5 m ρ c)
theorem w3_main_v6 : W3 m ρ c (Proc.devRef .tc main_v6) = di m c := (host1_main_v6 (W2 m ρ c)).trans (w2_main_v6 m ρ c)
theorem w3_main_v26 : W3 m ρ c (Proc.devRef .tc main_v26) = nr m c := (host1_main_v26 (W2 m ρ c)).trans (w2_main_v26 m ρ c)
theorem w3_main_arg4 : W3 m ρ c (Proc.devRef .tc main_arg4) = a4 m c := (host1_main_arg4 (W2 m ρ c)).trans (w2_main_arg4 m ρ c)
theorem w3_main_arg5 : W3 m ρ c (Proc.devRef .tc main_arg5) = a5 m c := (host1_main_arg5 (W2 m ρ c)).trans (w2_main_arg5 m ρ c)
theorem w3_main_arg6 : W3 m ρ c (Proc.devRef .tc main_arg6) = a6 m c := (host1_main_arg6 (W2 m ρ c)).trans (w2_main_arg6 m ρ c)
theorem w3_main_arg7 : W3 m ρ c (Proc.devRef .tc main_arg7) = a7 m c := (host1_main_arg7 (W2 m ρ c)).trans (w2_main_arg7 m ρ c)

/-! ## After the first bias stage: the first hidden layer -/

theorem w4_main_v42 : W4 m ρ c (Proc.devRef .tc main_v42) = h1 m c :=
  (W4_arr m ρ c 2).trans ((Stage1.final (V3 m ρ) c).trans
    ((congrArg₂ (biasReluRow 100000 32) (w3_main_v40 m ρ c) (w3_main_v41 m ρ c)).trans
      (biasReluRow_cast 100000 32 (g1 m c) (a3 m c) shapeCasts_S32_S1x32)))
theorem w4_main_v5 : W4 m ρ c (Proc.devRef .tc main_v5) = si m c := (W4_of_ne m ρ c main_v5 (by decide)).trans (w3_main_v5 m ρ c)
theorem w4_main_v6 : W4 m ρ c (Proc.devRef .tc main_v6) = di m c := (W4_of_ne m ρ c main_v6 (by decide)).trans (w3_main_v6 m ρ c)
theorem w4_main_v26 : W4 m ρ c (Proc.devRef .tc main_v26) = nr m c := (W4_of_ne m ρ c main_v26 (by decide)).trans (w3_main_v26 m ρ c)
theorem w4_main_arg4 : W4 m ρ c (Proc.devRef .tc main_arg4) = a4 m c := (W4_of_ne m ρ c main_arg4 (by decide)).trans (w3_main_arg4 m ρ c)
theorem w4_main_arg5 : W4 m ρ c (Proc.devRef .tc main_arg5) = a5 m c := (W4_of_ne m ρ c main_arg5 (by decide)).trans (w3_main_arg5 m ρ c)
theorem w4_main_arg6 : W4 m ρ c (Proc.devRef .tc main_arg6) = a6 m c := (W4_of_ne m ρ c main_arg6 (by decide)).trans (w3_main_arg6 m ρ c)
theorem w4_main_arg7 : W4 m ρ c (Proc.devRef .tc main_arg7) = a7 m c := (W4_of_ne m ρ c main_arg7 (by decide)).trans (w3_main_arg7 m ρ c)

/-! ## After the second linear stage -/

theorem w5_main_v43 : W5 m ρ c (Proc.devRef .tc main_v43) = y2 m c :=
  (W5_arr m ρ c 2).trans ((Stage2.final (V4 m ρ) c).trans
    (congrArg₂ (mm 100000 32 16) (w4_main_v42 m ρ c) (w4_main_arg4 m ρ c)))
theorem w5_main_v5 : W5 m ρ c (Proc.devRef .tc main_v5) = si m c := (W5_of_ne m ρ c main_v5 (by decide)).trans (w4_main_v5 m ρ c)
theorem w5_main_v6 : W5 m ρ c (Proc.devRef .tc main_v6) = di m c := (W5_of_ne m ρ c main_v6 (by decide)).trans (w4_main_v6 m ρ c)
theorem w5_main_v26 : W5 m ρ c (Proc.devRef .tc main_v26) = nr m c := (W5_of_ne m ρ c main_v26 (by decide)).trans (w4_main_v26 m ρ c)
theorem w5_main_arg5 : W5 m ρ c (Proc.devRef .tc main_arg5) = a5 m c := (W5_of_ne m ρ c main_arg5 (by decide)).trans (w4_main_arg5 m ρ c)
theorem w5_main_arg6 : W5 m ρ c (Proc.devRef .tc main_arg6) = a6 m c := (W5_of_ne m ρ c main_arg6 (by decide)).trans (w4_main_arg6 m ρ c)
theorem w5_main_arg7 : W5 m ρ c (Proc.devRef .tc main_arg7) = a7 m c := (W5_of_ne m ρ c main_arg7 (by decide)).trans (w4_main_arg7 m ρ c)

/-! ## After the third stretch: the second aggregation -/

theorem w6_main_v56 : W6 m ρ c (Proc.devRef .tc main_v56) = g2 m c :=
  (host3_main_v56 (W5 m ρ c)).trans
    (congr4 (aggregate16 (F := Ideal)) (w5_main_v5 m ρ c) (w5_main_v6 m ρ c) (w5_main_v26 m ρ c) (w5_main_v43 m ρ c))
theorem w6_main_v57 : W6 m ρ c (Proc.devRef .tc main_v57) = shapeCast S1x16 (a5 m c) shapeCasts_S16_S1x16 :=
  (host3_main_v57 (W5 m ρ c)).trans (congrArg (fun b => shapeCast S1x16 b shapeCasts_S16_S1x16) (w5_main_arg5 m ρ c))
theorem w6_main_arg6 : W6 m ρ c (Proc.devRef .tc main_arg6) = a6 m c := (host3_main_arg6 (W5 m ρ c)).trans (w5_main_arg6 m ρ c)
theorem w6_main_arg7 : W6 m ρ c (Proc.devRef .tc main_arg7) = a7 m c := (host3_main_arg7 (W5 m ρ c)).trans (w5_main_arg7 m ρ c)

/-! ## After the second bias stage: the second hidden layer -/

theorem w7_main_v58 : W7 m ρ c (Proc.devRef .tc main_v58) = h2 m c :=
  (W7_arr m ρ c 2).trans ((Stage3.final (V6 m ρ) c).trans
    ((congrArg₂ (biasReluRow 100000 16) (w6_main_v56 m ρ c) (w6_main_v57 m ρ c)).trans
      (biasReluRow_cast 100000 16 (g2 m c) (a5 m c) shapeCasts_S16_S1x16)))
theorem w7_main_arg6 : W7 m ρ c (Proc.devRef .tc main_arg6) = a6 m c := (W7_of_ne m ρ c main_arg6 (by decide)).trans (w6_main_arg6 m ρ c)
theorem w7_main_arg7 : W7 m ρ c (Proc.devRef .tc main_arg7) = a7 m c := (W7_of_ne m ρ c main_arg7 (by decide)).trans (w6_main_arg7 m ρ c)

/-! ## After the last stretch: the one-entry bias as a 1 × 1 array -/

theorem w8_main_v59 : W8 m ρ c (Proc.devRef .tc main_v59) = shapeCast S1x1 (a7 m c) shapeCasts_S1_S1x1 :=
  (host4_main_v59 (W7 m ρ c)).trans (congrArg (fun b => shapeCast S1x1 b shapeCasts_S1_S1x1) (w7_main_arg7 m ρ c))
theorem w8_main_v58 : W8 m ρ c (Proc.devRef .tc main_v58) = h2 m c := (host4_main_v58 (W7 m ρ c)).trans (w7_main_v58 m ρ c)
theorem w8_main_arg6 : W8 m ρ c (Proc.devRef .tc main_arg6) = a6 m c := (host4_main_arg6 (W7 m ρ c)).trans (w7_main_arg6 m ρ c)

/-! ## After the last stage: the result -/

/-- The returned array is the network's output of the argument arrays as launched. -/
theorem result : W9 m ρ c (Proc.devRef .tc main_v60)
    = model (a0 m c) (a1 m c) (a2 m c) (a3 m c) (a4 m c) (a5 m c) (a6 m c) (a7 m c) :=
  (W9_arr m ρ c 3).trans ((Stage4.final (V8 m ρ) c).trans
    ((congr3 (headRow 100000 16) (w8_main_v58 m ρ c) (w8_main_arg6 m ρ c) (w8_main_v59 m ρ c)).trans
      (headRow_cast 100000 16 (h2 m c) (a6 m c) (a7 m c) shapeCasts_S1_S1x1)))

end Cert.KernelIdeal.KernelValue

end
-- ==== Proof.RefValue.lean ====
/-
  What the idealized reference program returns, as the same function of its eight argument arrays.

  The reference's run is its operations composed. Its graph operations — the edge list with self-loops, the degrees,
  the edge weights, and the two aggregations — are, operation for operation, the ones named in Graph (the second
  layer recomputes the edge list and the weights by the same operations), for any float instance. On the extended
  reals each of its matrix products is the linear stage, each bias addition under a maximum with zero is the bias
  stage, and 1 / (1 + e^(-x)) of the last product plus its bias is the last stage. So the result is the network's
  output (Model) of the arguments.
-/
import proofs.«106234_j85143431676315_1_alg».proof.Proof.Gen.ReferenceIdeal.Read
import proofs.«106234_j85143431676315_1_alg».proof.Proof.Gen.KernelIdeal
import proofs.«106234_j85143431676315_1_alg».proof.Proof.Model

set_option maxRecDepth 16384

noncomputable section

namespace Cert.ReferenceIdeal.RefValue

open Cert.ReferenceIdeal Cert.ReferenceIdeal.Read Cert.Dense
open Idealize.ShloMosaic Idealize.ShloMosaic.ValueIdx

/-! ## The graph operations, for any float instance -/

section Generic

variable {F : FTy → Type} [FloatOps F]

theorem src_eq (x1 : (⟨S2x1600000, .i32⟩ : BufTy).Contents (Elt F)) : val_main_v6 (F := F) x1 = Cert.KernelIdeal.Graph.srcIdx (F := F) x1 := rfl
theorem dst_eq (x1 : (⟨S2x1600000, .i32⟩ : BufTy).Contents (Elt F)) : val_main_v7 (F := F) x1 = Cert.KernelIdeal.Graph.dstIdx (F := F) x1 := rfl
theorem norm_eq (x1 : (⟨S2x1600000, .i32⟩ : BufTy).Contents (Elt F)) :
    val_main_v27 (F := F) x1 = Cert.KernelIdeal.Graph.edgeNorm (F := F) (Cert.KernelIdeal.Graph.srcIdx (F := F) x1) (Cert.KernelIdeal.Graph.dstIdx (F := F) x1) := rfl
/-- The second layer's edge list and weights are recomputed by the same operations. -/
theorem src_eq' (x1 : (⟨S2x1600000, .i32⟩ : BufTy).Contents (Elt F)) : val_main_v47 (F := F) x1 = Cert.KernelIdeal.Graph.srcIdx (F := F) x1 := rfl
theorem dst_eq' (x1 : (⟨S2x1600000, .i32⟩ : BufTy).Contents (Elt F)) : val_main_v48 (F := F) x1 = Cert.KernelIdeal.Graph.dstIdx (F := F) x1 := rfl
theorem norm_eq' (x1 : (⟨S2x1600000, .i32⟩ : BufTy).Contents (Elt F)) :
    val_main_v68 (F := F) x1 = Cert.KernelIdeal.Graph.edgeNorm (F := F) (Cert.KernelIdeal.Graph.srcIdx (F := F) x1) (Cert.KernelIdeal.Graph.dstIdx (F := F) x1) := rfl

/-- The first aggregation is the aggregation of the first product along the edges. -/
theorem agg1_eq (x0 : (⟨S100000x8, .f32⟩ : BufTy).Contents (Elt F)) (x1 : (⟨S2x1600000, .i32⟩ : BufTy).Contents (Elt F)) (x2 : (⟨S8x32, .f32⟩ : BufTy).Contents (Elt F)) :
    val_main_v40 (F := F) x0 x1 x2
      = Cert.KernelIdeal.Graph.aggregate32 (F := F) (val_main_v6 (F := F) x1) (val_main_v7 (F := F) x1) (val_main_v27 (F := F) x1)
          (val_main_v4 (F := F) x0 x2) := rfl

/-- The second aggregation is the aggregation of the second product along the edges. -/
theorem agg2_eq (x0 : (⟨S100000x8, .f32⟩ : BufTy).Contents (Elt F)) (x1 : (⟨S2x1600000, .i32⟩ : BufTy).Contents (Elt F)) (x2 : (⟨S8x32, .f32⟩ : BufTy).Contents (Elt F)) (x3 : (⟨S32, .f32⟩ : BufTy).Contents (Elt F)) (x4 : (⟨S32x16, .f32⟩ : BufTy).Contents (Elt F)) :
    val_main_v81 (F := F) x0 x1 x2 x3 x4
      = Cert.KernelIdeal.Graph.aggregate16 (F := F) (val_main_v47 (F := F) x1) (val_main_v48 (F := F) x1) (val_main_v68 (F := F) x1)
          (val_main_v45 (F := F) x0 x1 x2 x3 x4) := rfl

end Generic

/-! ## The dense operations, on the extended reals -/

theorem lidx4 (i : S100000x32.Idx) (k : Fin 8) : lidx_main_v4 i k = ix2 (i 0) k :=
  funext fun a => Fin.ext (by match a with | ⟨0, _⟩ => rfl | ⟨1, _⟩ => rfl)
theorem ridx4 (i : S100000x32.Idx) (k : Fin 8) : ridx_main_v4 i k = ix2 k (i 1) :=
  funext fun a => Fin.ext (by match a with | ⟨0, _⟩ => rfl | ⟨1, _⟩ => rfl)

theorem lidx45 (i : S100000x16.Idx) (k : Fin 32) : lidx_main_v45 i k = ix2 (i 0) k :=
  funext fun a => Fin.ext (by match a with | ⟨0, _⟩ => rfl | ⟨1, _⟩ => rfl)
theorem ridx45 (i : S100000x16.Idx) (k : Fin 32) : ridx_main_v45 i k = ix2 k (i 1) :=
  funext fun a => Fin.ext (by match a with | ⟨0, _⟩ => rfl | ⟨1, _⟩ => rfl)

theorem lidx86 (i : S100000x1.Idx) (k : Fin 16) : lidx_main_v86 i k = ix2 (i 0) k :=
  funext fun a => Fin.ext (by match a with | ⟨0, _⟩ => rfl | ⟨1, _⟩ => rfl)
theorem ridx86 (i : S100000x1.Idx) (k : Fin 16) : ridx_main_v86 i k = ix2 k (i 1) :=
  funext fun a => Fin.ext (by match a with | ⟨0, _⟩ => rfl | ⟨1, _⟩ => rfl)

/-- The first matrix product is the linear stage. -/
theorem mm1_eq (x0 : (⟨S100000x8, .f32⟩ : BufTy).Contents (Elt Ideal)) (x2 : (⟨S8x32, .f32⟩ : BufTy).Contents (Elt Ideal)) : val_main_v4 (F := Ideal) x0 x2 = mm 100000 8 32 x0 x2 :=
  funext fun i => by
    rw [val_main_v4_apply]; unfold mm
    exact Finset.sum_congr rfl fun k _ => congrArg₂ (· * ·) (congrArg x0 (lidx4 i k)) (congrArg x2 (ridx4 i k))

/-- The bias vector broadcast over the rows reads, at (p, q), its entry q. -/
theorem bias1_idx (i : S100000x32.Idx) : idx_main_v41 (idx_main_v42 i) = ix1 (i 1) :=
  funext fun a => Fin.ext (by match a with | ⟨0, _⟩ => rfl)

/-- The first bias addition under the maximum with zero is the bias stage. -/
theorem br1_eq (x0 : (⟨S100000x8, .f32⟩ : BufTy).Contents (Elt Ideal)) (x1 : (⟨S2x1600000, .i32⟩ : BufTy).Contents (Elt Ideal)) (x2 : (⟨S8x32, .f32⟩ : BufTy).Contents (Elt Ideal)) (x3 : (⟨S32, .f32⟩ : BufTy).Contents (Elt Ideal)) :
    val_main_v44 (F := Ideal) x0 x1 x2 x3 = biasRelu 100000 32 (val_main_v40 (F := Ideal) x0 x1 x2) x3 :=
  funext fun i => by
    rw [val_main_v44_apply, val_main_v43_apply, val_main_v42_apply, val_main_v41_apply, val_main_call0_v0_apply,
      val_main_call0_cst_apply, bias1_idx]
    rfl

/-- The second matrix product is the linear stage. -/
theorem mm2_eq (x0 : (⟨S100000x8, .f32⟩ : BufTy).Contents (Elt Ideal)) (x1 : (⟨S2x1600000, .i32⟩ : BufTy).Contents (Elt Ideal)) (x2 : (⟨S8x32, .f32⟩ : BufTy).Contents (Elt Ideal)) (x3 : (⟨S32, .f32⟩ : BufTy).Contents (Elt Ideal)) (x4 : (⟨S32x16, .f32⟩ : BufTy).Contents (Elt Ideal)) :
    val_main_v45 (F := Ideal) x0 x1 x2 x3 x4 = mm 100000 32 16 (val_main_v44 (F := Ideal) x0 x1 x2 x3) x4 :=
  funext fun i => by
    rw [val_main_v45_apply]; unfold mm
    exact Finset.sum_congr rfl fun k _ =>
      congrArg₂ (· * ·) (congrArg (val_main_v44 (F := Ideal) x0 x1 x2 x3) (lidx45 i k)) (congrArg x4 (ridx45 i k))

theorem bias2_idx (i : S100000x16.Idx) : idx_main_v82 (idx_main_v83 i) = ix1 (i 1) :=
  funext fun a => Fin.ext (by match a with | ⟨0, _⟩ => rfl)

/-- The second bias addition under the maximum with zero is the bias stage. -/
theorem br2_eq (x0 : (⟨S100000x8, .f32⟩ : BufTy).Contents (Elt Ideal)) (x1 : (⟨S2x1600000, .i32⟩ : BufTy).Contents (Elt Ideal)) (x2 : (⟨S8x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) :
    val_main_v85 (F := Ideal) x0 x1 x2 x3 x4 x5 = biasRelu 100000 16 (val_main_v81 (F := Ideal) x0 x1 x2 x3 x4) x5 :=
  funext fun i => by
    rw [val_main_v85_apply, val_main_v84_apply, val_main_v83_apply, val_main_v82_apply, val_main_call1_v0_apply,
      val_main_call1_cst_apply, bias2_idx]
    rfl

/-- The word 0x3F800000 is the number one. -/
theorem one_word : Ideal.ofBits .f32 0x3F800000#32 = 1 := by
  simp [Ideal.ofBits, Ideal.ieee, -EReal.coe_mul]; norm_num

/-- The one-entry bias broadcast over the rows reads its one entry. -/
theorem bias3_idx (i : S100000x1.Idx) : idx_main_v87 (idx_main_v88 i) = ix1 (i 1) :=
  funext fun a => Fin.ext (by
    match a with
    | ⟨0, _⟩ => have h := idx2_lt1 i; show 0 = (i 1).val; omega)

/-- 1 / (1 + e^(-x)) of the last product plus its bias is the last stage. -/
theorem head_eq (x0 : (⟨S100000x8, .f32⟩ : BufTy).Contents (Elt Ideal)) (x1 : (⟨S2x1600000, .i32⟩ : BufTy).Contents (Elt Ideal)) (x2 : (⟨S8x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (x6 : (⟨S16x1, .f32⟩ : BufTy).Contents (Elt Ideal)) (x7 : (⟨S1, .f32⟩ : BufTy).Contents (Elt Ideal)) :
    val_main_v95 (F := Ideal) x0 x1 x2 x3 x4 x5 x6 x7
      = head 100000 16 (val_main_v85 (F := Ideal) x0 x1 x2 x3 x4 x5) x6 x7 :=
  funext fun i => by
    rw [val_main_v95_apply, val_main_v94_apply, val_main_cst_17_apply, val_main_v93_apply, val_main_v92_apply,
      val_main_cst_16_apply, val_main_v91_apply, val_main_v90_apply, val_main_v89_apply, val_main_v88_apply,
      val_main_v87_apply, val_main_v86_apply, bias3_idx]
    unfold head mm
    simp only [Ideal.hostDivf_def, Ideal.addf_def, Ideal.hostUnary_exp_def, Ideal.hostNegf_def, Ideal.negf_def,
      Ideal.ofBits_def, one_word, Ideal.logistic]
    have hs : (∑ k : Fin 16, val_main_v85 (F := Ideal) x0 x1 x2 x3 x4 x5 (lidx_main_v86 i k) * x6 (ridx_main_v86 i k))
        = ∑ l : Fin 16, val_main_v85 (F := Ideal) x0 x1 x2 x3 x4 x5 (ix2 (i 0) l) * x6 (ix2 l (i 1)) :=
      Finset.sum_congr rfl fun k _ =>
        congrArg₂ (· * ·) (congrArg (val_main_v85 (F := Ideal) x0 x1 x2 x3 x4 x5) (lidx86 i k)) (congrArg x6 (ridx86 i k))
    exact congrArg (fun s : EReal => Ideal.div 1 (1 + Ideal.exp (-(s + x7 (ix1 (i 1)))))) hs

/-! ## The result -/

/-- The reference's result is the network's output of the arguments. -/
theorem result (x0 : (⟨S100000x8, .f32⟩ : BufTy).Contents (Elt Ideal)) (x1 : (⟨S2x1600000, .i32⟩ : BufTy).Contents (Elt Ideal)) (x2 : (⟨S8x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (x6 : (⟨S16x1, .f32⟩ : BufTy).Contents (Elt Ideal)) (x7 : (⟨S1, .f32⟩ : BufTy).Contents (Elt Ideal)) :
    val_main_v95 (F := Ideal) x0 x1 x2 x3 x4 x5 x6 x7 = Cert.KernelIdeal.Model.model x0 x1 x2 x3 x4 x5 x6 x7 := by
  unfold Cert.KernelIdeal.Model.model Cert.KernelIdeal.Model.hidden2 Cert.KernelIdeal.Model.hidden1
  rw [head_eq, br2_eq, agg2_eq, mm2_eq, br1_eq, agg1_eq, mm1_eq, src_eq', dst_eq', norm_eq', src_eq, dst_eq, norm_eq]

end Cert.ReferenceIdeal.RefValue

end
-- ==== Proof.lean ====
/-
  A two-layer graph convolution network with a logistic output, computed two ways, gives one result.

    out = logistic ( relu( A · (relu( A · (x W1) + b1 ) W2) + b2 ) Wfc + bfc )

  Here x is a 100000 × 8 array of node features, A · y sums, into every node's row, the rows of y at the sources of the
  edges that point at the node (every node also points at itself), each scaled by rsqrt(degree of the source) ·
  rsqrt(degree of the target); W1, W2, Wfc are 8 × 32, 32 × 16 and 16 × 1 arrays and b1, b2, bfc bias vectors.

  The kernel program computes the three products, the two bias-and-maximum stages and the logistic output in ten row
  blocks of 10000 each, and the aggregation A · y by gather, scale and scatter-add operations between those
  stages; the reference program computes everything by whole-array operations and recomputes the edge weights for
  its second layer. On the extended reals a change of float format is the identity and a block product into a zero
  accumulator is a plain sum, so every row block of a tiled stage is the matching rows of the whole-array stage; the
  blocks tile the rows; the graph operations are the same operations applied to equal arrays in both programs; and the
  logistic function is 1 / (1 + e^(-x)) in both. Hence both programs return the function above of their arguments
  (Model): the kernel's side is KernelValue over the run in KernelRun, the reference's side is RefValue over its
  generated run. No hypothesis on the inputs is used for the equality of the results.

  Each program runs to the end without a fault and leaves its arguments as launched: for the two kernel programs this
  is the generated frame, for the reference its generated run. The idealization rewrote nothing, so there is nothing to
  preserve.
-/
import proofs.«106234_j85143431676315_1_alg».proof.Defs
import proofs.«106234_j85143431676315_1_alg».proof.Proof.Gen.Kernel
import proofs.«106234_j85143431676315_1_alg».proof.Proof.Gen.Kernel.Skeleton
import proofs.«106234_j85143431676315_1_alg».proof.Proof.Gen.Kernel.Launch
import proofs.«106234_j85143431676315_1_alg».proof.Proof.Gen.Kernel.Points
import proofs.«106234_j85143431676315_1_alg».proof.Proof.Gen.Kernel.Frame
import proofs.«106234_j85143431676315_1_alg».proof.Proof.Gen.KernelIdeal
import proofs.«106234_j85143431676315_1_alg».proof.Proof.Gen.KernelIdeal.Skeleton
import proofs.«106234_j85143431676315_1_alg».proof.Proof.Gen.KernelIdeal.Launch
import proofs.«106234_j85143431676315_1_alg».proof.Proof.Gen.KernelIdeal.Points
import proofs.«106234_j85143431676315_1_alg».proof.Proof.Gen.KernelIdeal.Frame
import proofs.«106234_j85143431676315_1_alg».proof.Proof.Gen.ReferenceIdeal
import proofs.«106234_j85143431676315_1_alg».proof.Proof.Gen.Pre_finite_inputs
import proofs.«106234_j85143431676315_1_alg».proof.Proof.Gen.ReferenceIdeal.Run
import proofs.«106234_j85143431676315_1_alg».proof.Proof.Gen.ReferenceIdeal.Read
import proofs.«106234_j85143431676315_1_alg».proof.Proof.KernelRun
import proofs.«106234_j85143431676315_1_alg».proof.Proof.KernelValue
import proofs.«106234_j85143431676315_1_alg».proof.Proof.RefValue
import Idealize.ShloMosaic.Adequacy
import Idealize.ShloMosaic.Init

noncomputable section

namespace Cert.Proof

open Idealize.ShloMosaic Idealize.SL.Sem

/-- The kernel program as printed runs to the end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the network's output of the
    arguments in their result arrays, and with their arguments unchanged. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.KernelValue.result m ρ c), (h c).2⟩)
      (Cert.KernelIdeal.Whole.run_result m ρ), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v95_eq, Cert.ReferenceIdeal.RefValue.result,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
